-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1x2048x1024 : Shape := ⟨3, ![1, 2048, 1024]⟩
abbrev S1024x1024 : Shape := ⟨2, ![1024, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S16x2048x1024 .f32) (main_arg1 : FVec F S1x2048x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S16x2048x1024 : Shape := ⟨3, ![16, 2048, 1024]⟩
abbrev S1x2048x1024 : Shape := ⟨3, ![1, 2048, 1024]⟩
abbrev S1024x1024 : Shape := ⟨2, ![1024, 1024]⟩
abbrev S1x512x1024 : Shape := ⟨3, ![1, 512, 1024]⟩
abbrev S2048x1024 : Shape := ⟨2, ![2048, 1024]⟩
abbrev S2048 : Shape := ⟨1, ![2048]⟩
abbrev S2048x1 : Shape := ⟨2, ![2048, 1]⟩
abbrev S512x1024 : Shape := ⟨2, ![512, 1024]⟩
abbrev S512x2048 : Shape := ⟨2, ![512, 2048]⟩

abbrev nBuf : Space → Nat
  | .hbm => 11
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S16x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x512x1024, .f32⟩
  | .local _ .vmem, ⟨7, _⟩ => ⟨S1x512x1024, .f32⟩
  | .local _ .vmem, ⟨8, _⟩ => ⟨S2048x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S2048x1024_S2048 : S2048x1024.Reduces [1] S2048
  shapeCasts_S2048_S2048x1 : S2048.ShapeCasts S2048x1
  broadcasts_S2048x1_S2048x1024 : S2048x1.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S512x1024 : 0 < S512x1024.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S2048x1024_S1024x1024_S2048x1024_1_1_0_0_n_n_wf : DotDims.WF S2048x1024 S1024x1024 S2048x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x1024.size a ≤ S2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x2048x1024.size a
  hwx0_0 : ∀ i : grid0.Coords, EltTy.bits .f32 = 32 ∨ (Rect.block (s := S16x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S1x2048x1024.size a
  hwx0_1 : ∀ i : grid0.Coords, EltTy.bits .f32 = 32 ∨ (Rect.block (s := S1x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S16x2048x1024.size a
  hwx0_6 : ∀ i : grid0.Coords, EltTy.bits .f32 = 32 ∨ (Rect.block (s := S16x2048x1024) S1x512x1024.size (cc0_transform_6 i) (hinb0_6 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S1x2048x1024 : Shape := ⟨3, ![1, 2048, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S16x2048x2048 : Shape := ⟨3, ![16, 2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S_, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S_, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S16x2048x2048, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x2048x1024, .f32⟩
  | .hbm, ⟨35, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_call1_cst : Ref sig .tc := ⟨.hbm, 13, rfl⟩
abbrev main_call1_v0 : Ref sig .tc := ⟨.hbm, 14, rfl⟩
abbrev main_v5 : Ref sig .tc := ⟨.hbm, 15, rfl⟩
abbrev main_call2_v0 : Ref sig .tc := ⟨.hbm, 16, rfl⟩
abbrev main_call2_cst : Ref sig .tc := ⟨.hbm, 17, rfl⟩
abbrev main_call2_v1 : Ref sig .tc := ⟨.hbm, 18, rfl⟩
abbrev main_call2_v2 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call3_cst : Ref sig .tc := ⟨.hbm, 29, rfl⟩
abbrev main_call3_v0 : Ref sig .tc := ⟨.hbm, 30, rfl⟩
abbrev main_v14 : Ref sig .tc := ⟨.hbm, 31, rfl⟩
abbrev main_v15 : Ref sig .tc := ⟨.hbm, 32, rfl⟩
abbrev main_call4_cst : Ref sig .tc := ⟨.hbm, 33, rfl⟩
abbrev main_call4_v0 : Ref sig .tc := ⟨.hbm, 34, rfl⟩
abbrev main_v16 : Ref sig .tc := ⟨.hbm, 35, rfl⟩

abbrev nD : Nat := 1
abbrev τ : Topo := Topo.v7x

variable {F : FTy → Type} [FloatOps F]

class Facts₀ : Prop where
  bcast_S1x2048x1024_S16x2048x1024_0_1_2 : S1x2048x1024.BroadcastsInDim S16x2048x1024 (![0, 1, 2] : Fin 3 → Fin S16x2048x1024.rank)
  bcast_S_S16x2048x1024 : S_.BroadcastsInDim S16x2048x1024 (![] : Fin 0 → Fin S16x2048x1024.rank)
  reducesTo_S16x2048x1024_S16x2048_d2 : S16x2048x1024.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.BodyValues.lean ====
/-
  What one run of the kernel body leaves behind, as plain values of what it read.

  The body has two cases. At the first query tile of a batch it first fills the carried buffer with the encoded
  sequence of the whole batch — a function `k0_pay1` of the token block, the positions and the two encoder weights —
  and then, as at every other tile, computes the output tile as a function `k0_pay2` of 512 rows of the carried
  buffer (the tile's own rows), the whole carried buffer and the two decoder weights. At the other tiles the carried
  buffer is only read. So the three values below: the carried buffer after a first tile; the output tile at a first
  tile, over the buffer just filled; the output tile at a later tile, over the buffer as found.
-/
import proofs.«106191_j46617575031493_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The 512 rows of a [2048, 1024] buffer that the query tile of grid point `i` reads: rows 512·(i 1) onwards. -/
abbrev tileRows (i : grid0.Coords) (y : Vec F S2048x1024 .bf16) : Vec F S512x1024 .bf16 :=
  View.ld y (Rect.unit (s := S2048x1024) (k0_off1 i) S512x1024.size (k0_off1_inb i))

/-- At a first tile the carried buffer ends holding the encoded sequence of the blocks read. -/
theorem carried_first (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S2048x1024 .bf16) (harg9 : arg9.IsWhole) (hc0 : cond0_0 i) (x0 : Vec F S1x2048x1024 .f32) (x1 : Vec F S1x2048x1024 .f32) (x2 : Vec F S1024x1024 .bf16) (x3 : Vec F S1024x1024 .bf16) (x4 : Vec F S1024x1024 .bf16) (x5 : Vec F S1024x1024 .bf16) :
    sout0_A_0 c i arg2 harg2 arg3 harg3 arg4 harg4 arg5 harg5 arg6 harg6 arg7 harg7 arg8 harg8 arg9 harg9 hc0 x0 x1 x2 x3 x4 x5 = k0_pay1 x0 x1 x2 x3 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero zeros2]
  simp only [View.readAt_eq_ld, harg2.read_unread, harg3.read_unread, harg4.read_unread, harg5.read_unread,
    View.ld_unit_zero (S := S1x2048x1024) zeros3, View.ld_unit_zero (S := S1024x1024) zeros2]

/-- At a first tile the output tile is computed over the buffer just filled. -/
theorem tile_first (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S2048x1024 .bf16) (harg9 : arg9.IsWhole) (hc0 : cond0_0 i) (x0 : Vec F S1x2048x1024 .f32) (x1 : Vec F S1x2048x1024 .f32) (x2 : Vec F S1024x1024 .bf16) (x3 : Vec F S1024x1024 .bf16) (x4 : Vec F S1024x1024 .bf16) (x5 : Vec F S1024x1024 .bf16) :
    out0_A_6 c i arg2 harg2 arg3 harg3 arg4 harg4 arg5 harg5 arg6 harg6 arg7 harg7 arg8 harg8 arg9 harg9 hc0 x0 x1 x2 x3 x4 x5
      = k0_pay2 (tileRows i (k0_pay1 x0 x1 x2 x3)) (k0_pay1 x0 x1 x2 x3) x4 x5 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero zeros3, View.readAt_writes_junk_eq_canon, View.readCov_unit_zero (S := S2048x1024) _ zeros2,
    View.canon_unit_zero zeros2]
  simp only [View.readAt_eq_ld, harg2.read_unread, harg3.read_unread, harg4.read_unread, harg5.read_unread,
    harg6.read_unread, harg7.read_unread,
    View.ld_unit_zero (S := S1x2048x1024) zeros3, View.ld_unit_zero (S := S1024x1024) zeros2]
  rfl

/-- At a later tile the output tile is computed over the carried buffer as the tile before left it. -/
theorem tile_later (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S2048x1024 .bf16) (harg9 : arg9.IsWhole) (hc0 : ¬cond0_0 i) (x0 : Vec F S1x2048x1024 .f32) (x1 : Vec F S1x2048x1024 .f32) (x2 : Vec F S1024x1024 .bf16) (x3 : Vec F S1024x1024 .bf16) (x4 : Vec F S1024x1024 .bf16) (x5 : Vec F S1024x1024 .bf16) (xs0 : Vec F S2048x1024 .bf16) :
    out0_B_6 c i arg2 harg2 arg3 harg3 arg4 harg4 arg5 harg5 arg6 harg6 arg7 harg7 arg8 harg8 arg9 harg9 hc0 x0 x1 x2 x3 x4 x5 xs0 = k0_pay2 (tileRows i xs0) xs0 x4 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  rw [View.canon_unit_zero zeros3]
  simp only [View.readAt_eq_ld, harg9.read_unread, harg6.read_unread, harg7.read_unread,
    View.ld_unit_zero (S := S2048x1024) zeros2, View.ld_unit_zero (S := S1024x1024) zeros2]

/-- A later tile leaves the carried buffer as it found it. -/
theorem carried_later (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S2048x1024 .bf16) (harg9 : arg9.IsWhole) (hc0 : ¬cond0_0 i) (x0 : Vec F S1x2048x1024 .f32) (x1 : Vec F S1x2048x1024 .f32) (x2 : Vec F S1024x1024 .bf16) (x3 : Vec F S1024x1024 .bf16) (x4 : Vec F S1024x1024 .bf16) (x5 : Vec F S1024x1024 .bf16) (xs0 : Vec F S2048x1024 .bf16) :
    sout0_B_0 c i arg2 harg2 arg3 harg3 arg4 harg4 arg5 harg5 arg6 harg6 arg7 harg7 arg8 harg8 arg9 harg9 hc0 x0 x1 x2 x3 x4 x5 xs0 = xs0 := rfl

end Cert.KernelIdeal.Body

end
-- ==== Proof.CarriedRows.lean ====
/-
  What the carried buffer and the output tile hold after every grid point.

  The grid is 16 batches × 4 query tiles, walked batch by batch: point t is tile t % 4 of batch t / 4. The token
  window's block at point t is the [2048, 1024] sequence of batch t / 4; the positions and the four weights are whole
  arrays at every point; the output window's block at point t is rows 512·(t % 4) … of batch t / 4. The carried
  buffer is filled at the first tile of a batch and only read at the other three, and the blocks a point reads depend
  on its batch alone, so after ANY point the carried buffer holds the encoded sequence of that point's own blocks
  (induction on the point), and the output tile is the second function of the body over it.
-/
import proofs.«106191_j46617575031493_2_alg».proof.Proof.Gen.KernelIdeal.Value
import proofs.«106191_j46617575031493_2_alg».proof.Proof.BodyValues
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Carried

open Cert.KernelIdeal Cert.KernelIdeal.Gen Cert.KernelIdeal.Body

variable {F : FTy → Type} [FloatOps F]
variable (m : (ℓ : Loc nD τ sig) → Buf (Elt F) ℓ)

/-- The printed index maps over the 64 grid points: the token window follows the batch, the output window the batch
    and the tile, every other window stays at block zero. -/
theorem block_indices : ∀ t : Fin cfg0.N,
    win0_0.index t (0 : Fin 3) = t.val / 4 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 4 ∧ win0_6.index t (1 : Fin 3) = t.val % 4 ∧ win0_6.index t (2 : Fin 3) = 0 :=
  (by decide +kernel : ∀ t : Fin grid0.N, _)

/-- The first row a query tile reads of the carried buffer: 512 times the tile's number. -/
theorem tile_offset : ∀ t : Fin cfg0.N, k0_off1 (grid0.coords t) = ![512 * (t.val % 4), 0] :=
  (by decide +kernel : ∀ t : Fin grid0.N, _)

/-- The batch of a grid point. -/
def batchOf (t : Fin cfg0.N) : Fin 16 := ⟨t.val / 4, by have h := t.isLt; have hN : cfg0.N = 64 := N_0; omega⟩

/-- The token window's block at point t is the sequence of the point's batch. -/
theorem tokens_block (c : Dev nD) (t : Fin cfg0.N) (u : Fin 1) (s : Fin 2048) (d : Fin 1024) :
    iblk m c 0 t (ix3 u s d) = V m c main_arg0 (ix3 (batchOf t) s d) := by
  obtain ⟨e0, e1, e2, -⟩ := block_indices t
  unfold iblk
  rw [View.read_apply]
  show V m c main_arg0 (((cfg0.win 0).blk t).view.emb (ix3 u s d)) = _
  refine congrArg (V m c main_arg0) (funext fun a => Fin.ext ?_)
  match a with
  | ⟨0, _⟩ => show win0_0.index t (0 : Fin 3) * 1 + 1 * u.val = t.val / 4; omega
  | ⟨1, _⟩ => show win0_0.index t (1 : Fin 3) * 2048 + 1 * s.val = s.val; omega
  | ⟨2, _⟩ => show win0_0.index t (2 : Fin 3) * 1024 + 1 * d.val = d.val; omega

/-- The positions window's block is the whole positions array at every point. -/
theorem positions_block (c : Dev nD) (t : Fin cfg0.N) :
    (iblk m c 1 t : Vec F S1x2048x1024 .f32) = V m c main_arg1 := by
  obtain ⟨-, -, -, e0, e1, e2, -⟩ := block_indices t
  funext y
  unfold iblk
  rw [View.read_apply]
  show V m c main_arg1 (((cfg0.win 1).blk t).view.emb y) = V m c main_arg1 y
  refine congrArg (V m c main_arg1) (funext fun a => Fin.ext ?_)
  match a with
  | ⟨0, _⟩ => show win0_1.index t (0 : Fin 3) * 1 + 1 * (y 0).val = (y 0).val; omega
  | ⟨1, _⟩ => show win0_1.index t (1 : Fin 3) * 2048 + 1 * (y 1).val = (y 1).val; omega
  | ⟨2, _⟩ => show win0_1.index t (2 : Fin 3) * 1024 + 1 * (y 2).val = (y 2).val; omega

/-- Each weight window's block is its whole (format-converted) weight at every point. -/
theorem weight0_block (c : Dev nD) (t : Fin cfg0.N) : (iblk m c 2 t : Vec F S1024x1024 .bf16) = V m c main_v0 := by
  obtain ⟨-, -, -, -, -, -, e0, e1, -⟩ := block_indices t
  funext y
  unfold iblk
  rw [View.read_apply]
  show V m c main_v0 (((cfg0.win 2).blk t).view.emb y) = V m c main_v0 y
  refine congrArg (V m c main_v0) (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega
theorem weight1_block (c : Dev nD) (t : Fin cfg0.N) : (iblk m c 3 t : Vec F S1024x1024 .bf16) = V m c main_v1 := by
  obtain ⟨-, -, -, -, -, -, -, -, e0, e1, -⟩ := block_indices t
  funext y
  unfold iblk
  rw [View.read_apply]
  show V m c main_v1 (((cfg0.win 3).blk t).view.emb y) = V m c main_v1 y
  refine congrArg (V m c main_v1) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega
theorem weight2_block (c : Dev nD) (t : Fin cfg0.N) : (iblk m c 4 t : Vec F S1024x1024 .bf16) = V m c main_v2 := by
  obtain ⟨-, -, -, -, -, -, -, -, -, -, e0, e1, -⟩ := block_indices t
  funext y
  unfold iblk
  rw [View.read_apply]
  show V m c main_v2 (((cfg0.win 4).blk t).view.emb y) = V m c main_v2 y
  refine congrArg (V m c main_v2) (funext fun a => Fin.ext ?_)
  match a with
  | ⟨0, _⟩ => show win0_4.index t (0 : Fin 2) * 1024 + 1 * (y 0).val = (y 0).val; omega
  | ⟨1, _⟩ => show win0_4.index t (1 : Fin 2) * 1024 + 1 * (y 1).val = (y 1).val; omega
theorem weight3_block (c : Dev nD) (t : Fin cfg0.N) : (iblk m c 5 t : Vec F S1024x1024 .bf16) = V m c main_v3 := by
  obtain ⟨-, -, -, -, -, -, -, -, -, -, -, -, e0, e1, -⟩ := block_indices t
  funext y
  unfold iblk
  rw [View.read_apply]
  show V m c main_v3 (((cfg0.win 5).blk t).view.emb y) = V m c main_v3 y
  refine congrArg (V m c main_v3) (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- Two points of one batch read the same token block. -/
theorem tokens_block_congr (c : Dev nD) (t t' : Fin cfg0.N) (h : t.val / 4 = t'.val / 4) :
    (iblk m c 0 t : Vec F S1x2048x1024 .f32) = iblk m c 0 t' := by
  funext y
  obtain ⟨u, s, d, rfl⟩ : ∃ (u : Fin 1) (s : Fin 2048) (d : Fin 1024), y = ix3 u s d := ⟨y 0, y 1, y 2, eq_ix3 y⟩
  rw [tokens_block, tokens_block]
  exact congrArg (fun b => V m c main_arg0 (ix3 b s d)) (Fin.ext h)

/-- THE ENCODED SEQUENCE of the batch of point t, from the blocks the point itself reads. -/
def encodedAt (c : Dev nD) (t : Fin cfg0.N) : Vec F S2048x1024 .bf16 :=
  k0_pay1 (iblk m c 0 t) (iblk m c 1 t) (iblk m c 2 t) (iblk m c 3 t)

/-- It is the same for the points of one batch. -/
theorem encodedAt_congr (c : Dev nD) (t t' : Fin cfg0.N) (h : t.val / 4 = t'.val / 4) :
    encodedAt m c t = encodedAt m c t' := by
  unfold encodedAt
  rw [tokens_block_congr m c t t' h, positions_block m c t, positions_block m c t', weight0_block m c t,
    weight0_block m c t', weight1_block m c t, weight1_block m c t']

/-- The components of a pair known by an equation. -/
theorem fst_of_eq {α β : Type} {p : α × β} {a : α} {b : β} (h : p = (a, b)) : p.1 = a := by subst h; rfl
theorem snd_of_eq {α β : Type} {p : α × β} {a : α} {b : β} (h : p = (a, b)) : p.2 = b := by subst h; rfl

/-- THE CARRIED BUFFER after point n holds the encoded sequence of point n's batch: filled at a first tile, kept at
    the others. -/
theorem carried_eq (c : Dev nD) : ∀ (n : ℕ) (h : n < cfg0.N), (outsAt0 m c n h).2 = encodedAt m c ⟨n, h⟩
  | 0, h =>
    (snd_of_eq (outsAt0_A m c ⟨0, h⟩ rfl)).trans
      (carried_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) scM0_0 (Memref.isWhole_whole _) ((hcond0_0 (⟨0, h⟩ : Fin cfg0.N)).mpr rfl) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)))
  | n + 1, h => by
    by_cases h0 : (n + 1) % 4 = 0
    · exact (snd_of_eq (outsAt0_A m c ⟨n + 1, h⟩ h0)).trans
        (carried_first c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) scM0_0 (Memref.isWhole_whole _) ((hcond0_0 (⟨n + 1, h⟩ : Fin cfg0.N)).mpr h0) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)))
    · refine (snd_of_eq (outsAt0_B m c ⟨n + 1, h⟩ h0)).trans ?_
      refine (carried_later c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) scM0_0 (Memref.isWhole_whole _) (fun hc => h0 ((hcond0_0 (⟨n + 1, h⟩ : Fin cfg0.N)).mp hc)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) _).trans ?_
      refine (carried_eq c n (Nat.lt_of_succ_lt h)).trans ?_
      exact encodedAt_congr m c _ _ (by show n / 4 = (n + 1) / 4; omega)

/-- THE OUTPUT TILE after point t: the second function of the body over the tile's rows of the encoded sequence, the
    whole encoded sequence and the decoder weights. -/
theorem tile_eq (c : Dev nD) (t : Fin cfg0.N) :
    (outsAt0 m c t.val t.isLt).1
      = k0_pay2 (tileRows (grid0.coords t) (encodedAt m c t)) (encodedAt m c t) (iblk m c 4 t) (iblk m c 5 t) := by
  by_cases h0 : t.val % 4 = 0
  · exact (fst_of_eq (outsAt0_A m c t h0)).trans
      (tile_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t))
  · have hpos : 0 < t.val := Nat.pos_of_ne_zero fun hz => h0 (by rw [hz])
    have hprev : (outsAt0 m c (t.val - 1) (Nat.lt_of_le_of_lt (Nat.sub_le _ _) t.isLt)).2 = encodedAt m c t :=
      (carried_eq m c (t.val - 1) _).trans (encodedAt_congr m c _ _ (by show (t.val - 1) / 4 = t.val / 4; omega))
    refine (fst_of_eq (outsAt0_B m c t h0)).trans ?_
    refine (tile_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h0 ((hcond0_0 t).mp hc)) (iblk m c 0 t) (iblk m c 1 t) (iblk m c 2 t) (iblk m c 3 t) (iblk m c 4 t) (iblk m c 5 t) _).trans ?_
    rw [hprev]

end Cert.KernelIdeal.Carried

end
-- ==== Proof.CosineBlock.lean ====
/-
  The function both programs compute, index by index, on the extended reals.

  A batch of 16 sequences of 2048 tokens with 1024 features each. Per batch b:
    * token s is embedded as  x[b, s, ·] + pos[0, s, ·];
    * two bias-free linear layers with a relu after each (a layer against W sends a row a to the row
      e ↦ max (∑ k, a k · W[e, k]) 0: the weight's rows are the output features);
    * each row is divided by its Euclidean norm plus ε (ε the f32 word 0x358637BD): the encoded row y[b, s, ·];
    * every token attends to every token of its batch with the raw inner products as weights, no softmax:
        attend s d = ∑ t, (∑ k, y[s, k] · y[t, k]) · y[t, d];
    * two more linear layers with relus.
  Float literals stay the words the programs print; both sides carry the same words, so none is evaluated here.
-/
import Idealize.ShloMosaic.PureOps.Ideal.Laws
import Idealize.ShloMosaic.Lib.ValueIdx

noncomputable section

open scoped BigOperators

namespace Cert.CosineBlock

open Idealize.ShloMosaic Idealize.ShloMosaic.ValueIdx

/-- The shapes of the arguments: tokens [16, 2048, 1024], positions [1, 2048, 1024], a weight [1024, 1024]. -/
abbrev Tokens : Shape := ⟨3, ![16, 2048, 1024]⟩
abbrev Positions : Shape := ⟨3, ![1, 2048, 1024]⟩
abbrev Weight : Shape := ⟨2, ![1024, 1024]⟩

/-- The relu: the larger of a value and the f32 zero word. -/
def relu (v : EReal) : EReal := max v (Ideal.ofBits .f32 0x00000000#32)

/-- One bias-free linear layer against `w` (its rows the output features) followed by the relu, on one row. -/
def dense (a : Fin 1024 → EReal) (w : Weight.Idx → EReal) (e : Fin 1024) : EReal :=
  relu (∑ k : Fin 1024, a k * w (ix2 e k))

/-- A row divided by its Euclidean norm plus ε. -/
def unitRow (h : Fin 1024 → EReal) (e : Fin 1024) : EReal :=
  Ideal.div (h e) (Ideal.sqrt (∑ k : Fin 1024, h k * h k) + Ideal.ofBits .f32 0x358637BD#32)

/-- Token `s` of batch `b`, embedded. -/
def embed (x : Tokens.Idx → EReal) (pos : Positions.Idx → EReal) (b : Fin 16) (s : Fin 2048) (d : Fin 1024) : EReal :=
  x (ix3 b s d) + pos (ix3 (0 : Fin 1) s d)

/-- The encoded row of token `s` of batch `b`: embedded, two layers, normalized. -/
def encode (x : Tokens.Idx → EReal) (pos : Positions.Idx → EReal) (w0 w1 : Weight.Idx → EReal)
    (b : Fin 16) (s : Fin 2048) : Fin 1024 → EReal :=
  unitRow (dense (dense (embed x pos b s) w0) w1)

/-- Cosine attention without a softmax over the rows `y` of one batch, for token `s`. -/
def attend (y : Fin 2048 → Fin 1024 → EReal) (s : Fin 2048) (d : Fin 1024) : EReal :=
  ∑ t : Fin 2048, (∑ k : Fin 1024, y s k * y t k) * y t d

/-- The whole block. -/
def block (x : Tokens.Idx → EReal) (pos : Positions.Idx → EReal) (w0 w1 w2 w3 : Weight.Idx → EReal) :
    Tokens.Idx → EReal := fun i =>
  dense (dense (attend (encode x pos w0 w1 (i 0)) (i 1)) w2) w3 (i 2)

theorem block_apply (x : Tokens.Idx → EReal) (pos : Positions.Idx → EReal) (w0 w1 w2 w3 : Weight.Idx → EReal)
    (b : Fin 16) (s : Fin 2048) (e : Fin 1024) :
    block x pos w0 w1 w2 w3 (ix3 b s e) = dense (dense (attend (encode x pos w0 w1 b) s) w2) w3 e := rfl

end Cert.CosineBlock

end
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.LibPlainDot.lean ====
/-
  A matrix product of the plain kind — rows × contraction times contraction × columns — read at an index, at the
  ideal instance.

  For the dimension numbers `DotDims.plain M K N` both the vector unit's matmul into a zero accumulator and the host's
  dot_general are, at output index (a, b), the sum over k of l (a, k) · r (k, b) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of such a product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx,
        l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.PayloadRead.lean ====
/-
  The two functions of the kernel body, read at one index on the extended reals.

  `k0_pay1` (the encoded sequence of a batch, from the token block, the positions and the encoder weights) at row s,
  feature e is the normalized two-layer image of the embedded token s; `k0_pay2` (one output tile, from the tile's own
  512 encoded rows, all 2048 encoded rows and the decoder weights) at row q, feature e is the two-layer image of the
  attention row of q. Each operation is read at an index through one small lemma stated over variables: a change of
  float format is the identity, a matrix product into a zero accumulator is the sum of products over the contracted
  coordinate, a sum along the feature axis is the sum over that coordinate, and the keep-dimension casts and
  broadcasts move no value.
-/
import proofs.«106191_j46617575031493_2_alg».proof.Proof.Gen.KernelIdeal.Skeleton
import proofs.«106191_j46617575031493_2_alg».proof.Proof.CosineBlock
import proofs.«106191_j46617575031493_2_alg».proof.Proof.LibTransposedDot
import proofs.«106191_j46617575031493_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.CosineBlock

/-- A [1, 2048, 1024] block viewed as [2048, 1024], twice, and added: the embedded token at (s, d). -/
theorem embed_read (x0 x1 : FVec Ideal S1x2048x1024 .f32) (s : Fin 2048) (d : Fin 1024) :
    addf (F := Ideal) (φ := .f32) (shapeCast S2048x1024 x0 shapeCasts_S1x2048x1024_S2048x1024)
        (shapeCast S2048x1024 x1 shapeCasts_S1x2048x1024_S2048x1024) (ix2 s d)
      = x0 (ix3 (0 : Fin 1) s d) + x1 (ix3 (0 : Fin 1) s d) := by
  show shapeCast S2048x1024 x0 _ (ix2 s d) + shapeCast S2048x1024 x1 _ (ix2 s d) = _
  rw [shapeCast_1ab_ab_apply, shapeCast_1ab_ab_apply]

/-- A product against a weight contracted on its last axis into a zero accumulator, then the relu: one layer, at (s, e). -/
theorem layer_read {M : Nat} (D : DotDims ⟨2, ![M, 1024]⟩ ⟨2, ![1024, 1024]⟩ ⟨2, ![M, 1024]⟩)
    (hD : D = DotDims.transposedRhs M 1024 1024) (a : FVec Ideal ⟨2, ![M, 1024]⟩ .bf16) (w : FVec Ideal ⟨2, ![1024, 1024]⟩ .bf16)
    (s : Fin M) (e : Fin 1024) :
    maximumf (matmul D none a w (constant ⟨2, ![M, 1024]⟩ .f32 0x00000000#32))
        (broadcast ⟨2, ![M, 1024]⟩ (FloatOps.ofBits (F := Ideal) .f32 0x00000000#32)) (ix2 s e)
      = dense (fun k => a (ix2 s k)) w e := by
  show max (matmul D none a w (constant ⟨2, ![M, 1024]⟩ .f32 0x00000000#32) (ix2 s e)) (Ideal.ofBits .f32 0x00000000#32) = _
  rw [TransposedDot.matmul_transposedRhs D hD none a w s e]
  rfl

/-- The sum of a [2048, 1024] vector along its feature axis, at row s. -/
theorem rowSum_read (v : FVec Ideal S2048x1024 .f32) (hφ : FKind.Formats .f32)
    (hacc : (0x00000000#32 : BitVec 32) = FKind.add.neutral .f32 hφ) (s : Fin 2048) :
    multiReduction .add [1] S2048 v 0x00000000#32 reduces_S2048x1024_S2048 hφ hacc (ix1 s)
      = ∑ k : Fin 1024, v (ix2 s k) :=
  (Ideal.multiReduction_add_single v 0x00000000#32 reduces_S2048x1024_S2048 hφ hacc (ix1 s)).trans
    (Finset.sum_congr rfl fun k _ => congrArg v (funext fun c => Fin.ext (by
      match c with
      | ⟨0, _⟩ => rfl
      | ⟨1, _⟩ => rfl)))

/-- A [2048] vector viewed as a column [2048, 1]. -/
theorem column_read (v : FVec Ideal S2048 .f32) (s : Fin 2048) :
    shapeCast S2048x1 v shapeCasts_S2048_S2048x1 (ix2 s (0 : Fin 1)) = v (ix1 s) :=
  shapeCast_apply v shapeCasts_S2048_S2048x1 _ _ (by
    rw [Shape.rowMajor_val_one, Shape.rowMajor_val_two]
    show s.val = s.val * 1 + 0
    omega)

/-- A column [2048, 1] broadcast along the features. -/
theorem spread_read (v : FVec Ideal S2048x1 .f32) (s : Fin 2048) (e : Fin 1024) :
    broadcastTo S2048x1024 v broadcasts_S2048x1_S2048x1024 (ix2 s e) = v (ix2 s (0 : Fin 1)) :=
  broadcastTo_apply v broadcasts_S2048x1_S2048x1024 (ix2 s e) (ix2 s (0 : Fin 1)) fun a => by
    match a with
    | ⟨0, _⟩ => show s.val = if (2048 : Nat) = 1 then 0 else s.val; rw [if_neg (by decide)]
    | ⟨1, _⟩ => show 0 = if (1 : Nat) = 1 then 0 else e.val; rw [if_pos rfl]

/-- A row divided by the square root of the sum of its squares plus ε, at (s, e). -/
theorem normalize_read (h : FVec Ideal S2048x1024 .f32) (hφ : FKind.Formats .f32)
    (hacc : (0x00000000#32 : BitVec 32) = FKind.add.neutral .f32 hφ) (s : Fin 2048) (e : Fin 1024) :
    divf h (broadcastTo S2048x1024
        (addf (sqrt (shapeCast S2048x1 (multiReduction .add [1] S2048 (mulf h h) 0x00000000#32 reduces_S2048x1024_S2048 hφ hacc)
            shapeCasts_S2048_S2048x1))
          (broadcast S2048x1 (FloatOps.ofBits (F := Ideal) .f32 0x358637BD#32)))
        broadcasts_S2048x1_S2048x1024) (ix2 s e)
      = unitRow (fun k => h (ix2 s k)) e := by
  show Ideal.div (h (ix2 s e)) (broadcastTo S2048x1024 _ broadcasts_S2048x1_S2048x1024 (ix2 s e)) = _
  rw [spread_read]
  show Ideal.div (h (ix2 s e)) (Ideal.sqrt (shapeCast S2048x1 _ shapeCasts_S2048_S2048x1 (ix2 s (0 : Fin 1)))
    + Ideal.ofBits .f32 0x358637BD#32) = _
  rw [column_read, rowSum_read]
  rfl

/-- THE ENCODED ROWS: the first function of the body at row s, feature e. -/
theorem encoded_read (x0 x1 : Vec Ideal S1x2048x1024 .f32) (x2 x3 : Vec Ideal S1024x1024 .bf16) (s : Fin 2048) (e : Fin 1024) :
    k0_pay1 x0 x1 x2 x3 (ix2 s e)
      = unitRow (dense (dense (fun d => x0 (ix3 (0 : Fin 1) s d) + x1 (ix3 (0 : Fin 1) s d)) x2) x3) e := by
  unfold k0_pay1
  dsimp only
  simp only [shapeCast_self]
  show divf (F := Ideal) (φ := .f32) _ _ (ix2 s e) = _
  refine (normalize_read _ _ _ s e).trans ?_
  refine congrArg (fun h => unitRow h e) (funext fun k => ?_)
  refine (layer_read _ rfl _ _ s k).trans ?_
  refine congrArg (fun a => dense a x3 k) (funext fun k' => ?_)
  show maximumf (F := Ideal) (φ := .f32) _ _ (ix2 s k') = _
  refine (layer_read _ rfl _ _ s k').trans ?_
  refine congrArg (fun a => dense a x2 k') (funext fun d => ?_)
  exact embed_read x0 x1 s d

/-- THE OUTPUT TILE: the second function of the body at row r of the tile, feature e, over the tile's own encoded rows
    `q` and all the encoded rows `y` of the batch: the inner products of row r with every row, those weights applied
    to the rows, then the two decoder layers. -/
theorem tile_read (q : FVec Ideal S512x1024 .bf16) (y : FVec Ideal S2048x1024 .bf16) (x4 x5 : Vec Ideal S1024x1024 .bf16)
    (u : Fin 1) (r : Fin 512) (e : Fin 1024) :
    k0_pay2 q y x4 x5 (ix3 u r e)
      = dense (dense (fun d => ∑ t : Fin 2048, (∑ k : Fin 1024, q (ix2 r k) * y (ix2 t k)) * y (ix2 t d)) x4) x5 e := by
  unfold k0_pay2
  simp only [shapeCast_self]
  refine (shapeCast_ab_1ab_apply _ shapeCasts_S512x1024_S1x512x1024 u r e).trans ?_
  refine (layer_read _ rfl _ _ r e).trans ?_
  refine congrArg (fun a => dense a x5 e) (funext fun k => ?_)
  show maximumf (F := Ideal) (φ := .f32) _ _ (ix2 r k) = _
  refine (layer_read _ rfl _ _ r k).trans ?_
  refine congrArg (fun a => dense a x4 k) (funext fun d => ?_)
  show matmul (F := Ideal) dot_S512x2048_S2048x1024_S512x1024_1_0_0_1_n_n none _ y (constant S512x1024 .f32 0x00000000#32) (ix2 r d) = _
  refine (PlainDot.matmul_plain _ rfl none _ y r d).trans ?_
  refine Finset.sum_congr rfl fun t _ => congrArg (· * y (ix2 t d)) ?_
  show matmul (F := Ideal) dot_S512x1024_S2048x1024_S512x2048_1_1_0_0_n_n none q y (constant S512x2048 .f32 0x00000000#32) (ix2 r t) = _
  exact TransposedDot.matmul_transposedRhs _ rfl none q y r t

end Cert.KernelIdeal.Payload

end
-- ==== Proof.ResultArray.lean ====
/-
  The kernel's result array is the specification of its arguments.

  Point t of the grid writes back rows 512·(t % 4) … 512·(t % 4) + 511 of batch t / 4. What it writes is the second
  function of the body over the encoded sequence of its batch; row r of the tile reads row 512·(t % 4) + r of that
  sequence as its own, and the encoded sequence is the specification's encoding of the batch (the weights reach the
  kernel through a change of float format, the identity on the extended reals). So the block point t writes back is
  the block of `block` of the arguments under the output window at t; the 64 blocks tile the [16, 2048, 1024] array
  (the point covering (b, s, ·) is 4·b + s / 512), and the array after the run is `block` of the arguments.
-/
import proofs.«106191_j46617575031493_2_alg».proof.Proof.Gen.KernelIdeal.Value
import proofs.«106191_j46617575031493_2_alg».proof.Proof.CarriedRows
import proofs.«106191_j46617575031493_2_alg».proof.Proof.PayloadRead
import proofs.«106191_j46617575031493_2_alg».proof.Proof.CosineBlock
import Idealize.ShloMosaic.Lib.Pipeline.Value
import Idealize.ShloMosaic.Lib.StableHlo.Run
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Body Cert.KernelIdeal.Carried Cert.KernelIdeal.Payload
open Cert.CosineBlock

variable (m : (ℓ : Loc nD τ sig) → Buf (Elt Ideal) ℓ) (ρ : Dev nD → PrngReg)

/-- The weights as the region finds them: the host changed their float format, which changes no extended real. -/
theorem weight0_found (c : Dev nD) : (V m c main_v0 : S1024x1024.Idx → EReal) = (m ((c : Thread nD τ).loc main_arg2)) := by
  dsimp only [Gen.V, Gen.hostOps0]; after_results; rfl
theorem weight1_found (c : Dev nD) : (V m c main_v1 : S1024x1024.Idx → EReal) = (m ((c : Thread nD τ).loc main_arg3)) := by
  dsimp only [Gen.V, Gen.hostOps0]; after_results; rfl
theorem weight2_found (c : Dev nD) : (V m c main_v2 : S1024x1024.Idx → EReal) = (m ((c : Thread nD τ).loc main_arg4)) := by
  dsimp only [Gen.V, Gen.hostOps0]; after_results; rfl
theorem weight3_found (c : Dev nD) : (V m c main_v3 : S1024x1024.Idx → EReal) = (m ((c : Thread nD τ).loc main_arg5)) := by
  dsimp only [Gen.V, Gen.hostOps0]; after_results; rfl

/-- THE RESULT: the specification at the arguments as launched on core c. -/
abbrev result (c : Dev nD) : S16x2048x1024.Idx → EReal :=
  block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The encoded sequence of the batch of point t is the specification's encoding of that batch. -/
theorem encoded_rows (c : Dev nD) (t : Fin cfg0.N) (s : Fin 2048) (k : Fin 1024) :
    encodedAt m c t (ix2 s k) = encode (m ((c : Thread nD τ).loc main_arg0)) (m ((c : Thread nD τ).loc main_arg1)) (m ((c : Thread nD τ).loc main_arg2)) (m ((c : Thread nD τ).loc main_arg3)) (batchOf t) s k := by
  unfold encodedAt
  refine (encoded_read (iblk m c 0 t) (iblk m c 1 t) (iblk m c 2 t) (iblk m c 3 t) s k).trans ?_
  rw [weight0_block, weight1_block, weight0_found, weight1_found]
  unfold encode
  refine congrArg (fun a => unitRow (dense (dense a (m ((c : Thread nD τ).loc main_arg2))) (m ((c : Thread nD τ).loc main_arg3))) k) (funext fun d => ?_)
  rw [tokens_block, positions_block, V_main_arg0, V_main_arg1]
  rfl

/-- The row of the batch that row r of the query tile of point t is. -/
def rowOf (t : Fin cfg0.N) (r : Fin 512) : Fin 2048 := ⟨512 * (t.val % 4) + r.val, by have := r.isLt; omega⟩

/-- The tile's own rows of a [2048, 1024] buffer. -/
theorem tile_rows (t : Fin cfg0.N) (y : Vec Ideal S2048x1024 .bf16) (r : Fin 512) (k : Fin 1024) :
    tileRows (F := Ideal) (grid0.coords t) y (ix2 r k) = y (ix2 (rowOf t r) k) := by
  have h0 : k0_off1 (grid0.coords t) 0 = 512 * (t.val % 4) := congrFun (tile_offset t) 0
  have h1 : k0_off1 (grid0.coords t) 1 = 0 := congrFun (tile_offset t) 1
  show y ((Rect.unit (s := S2048x1024) (k0_off1 (grid0.coords t)) S512x1024.size (k0_off1_inb (grid0.coords t))).idx (ix2 r k)) = _
  refine congrArg y (funext fun a => Fin.ext ?_)
  match a with
  | ⟨0, _⟩ => show k0_off1 (grid0.coords t) 0 + 1 * r.val = 512 * (t.val % 4) + r.val; omega
  | ⟨1, _⟩ => show k0_off1 (grid0.coords t) 1 + 1 * k.val = k.val; omega

/-- WHAT POINT t WRITES BACK is the block of the result under the output window at t. -/
theorem flushed_eq (c : Dev nD) (t : Fin cfg0.N) :
    (dats m 0 c).flushed 6 t = ((cfg0.win 6).blk t).view.read (Elt Ideal) (result m c) := by
  obtain ⟨-, -, -, -, -, -, -, -, -, -, -, -, -, -, e0, e1, e2⟩ := block_indices t
  rw [Value.flushed6]
  funext y
  obtain ⟨u, r, e, rfl⟩ : ∃ (u : Fin 1) (r : Fin 512) (e : Fin 1024), y = ix3 u r e := ⟨y 0, y 1, y 2, eq_ix3 y⟩
  rw [View.read_apply]
  show (outsAt0 m c t.val t.isLt).1 (ix3 u r e) = result m c (((cfg0.win 6).blk t).view.emb (ix3 u r e))
  have hemb : ((cfg0.win 6).blk t).view.emb (ix3 u r e) = ix3 (batchOf t) (rowOf t r) e :=
    funext fun a => Fin.ext (by
      match a with
      | ⟨0, _⟩ => show win0_6.index t (0 : Fin 3) * 1 + 1 * u.val = t.val / 4; omega
      | ⟨1, _⟩ => show win0_6.index t (1 : Fin 3) * 512 + 1 * r.val = 512 * (t.val % 4) + r.val; omega
      | ⟨2, _⟩ => show win0_6.index t (2 : Fin 3) * 1024 + 1 * e.val = e.val; omega)
  rw [hemb, tile_eq m c t]
  show k0_pay2 (F := Ideal) _ _ _ _ (ix3 u r e) = block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (batchOf t) (rowOf t r) e)
  rw [block_apply]
  refine (tile_read (tileRows (grid0.coords t) (encodedAt m c t)) (encodedAt m c t) (iblk m c 4 t) (iblk m c 5 t) u r e).trans ?_
  rw [weight2_block, weight3_block, weight2_found, weight3_found]
  refine congrArg (fun a => dense (dense a (m ((c : Thread nD τ).loc main_arg4))) (m ((c : Thread nD τ).loc main_arg5)) e) (funext fun d => ?_)
  unfold attend
  refine Finset.sum_congr rfl fun t' _ => ?_
  rw [encoded_rows]
  refine congrArg (fun v => v * _) (Finset.sum_congr rfl fun k _ => ?_)
  rw [tile_rows, encoded_rows, encoded_rows]

/-- An index of the array is under point t's block iff each coordinate is in the block's range on its axis. -/
theorem mem_block (t : Fin cfg0.N) (i : S16x2048x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v4).slice (win0_6.rect t)).set ↔ _
  rw [View.set_slice_whole, Rect.mem_set_unit]
  exact Iff.rfl

/-- Every index of the array is under some point's block: (b, s, ·) under point 4·b + s / 512. -/
theorem covered (i : S16x2048x1024.Idx) :
    ∃ t : Fin cfg0.N, (cfg0.win 6).flush t = true ∧ i ∈ ((cfg0.win 6).blk t).view.set := by
  have h0 : (i 0).val < 16 := (i 0).isLt
  have h1 : (i 1).val < 2048 := (i 1).isLt
  have h2 : (i 2).val < 1024 := (i 2).isLt
  have hN : cfg0.N = 64 := N_0
  have ht : 4 * (i 0).val + (i 1).val / 512 < cfg0.N := by omega
  obtain ⟨-, -, -, -, -, -, -, -, -, -, -, -, -, -, e0, e1, e2⟩ := block_indices ⟨4 * (i 0).val + (i 1).val / 512, ht⟩
  refine ⟨⟨4 * (i 0).val + (i 1).val / 512, ht⟩, flush0_6 _, ?_⟩
  rw [mem_block]
  intro a
  match a with
  | ⟨0, _⟩ =>
    show win0_6.index ⟨4 * (i 0).val + (i 1).val / 512, ht⟩ (0 : Fin 3) * 1 ≤ (i 0).val
      ∧ (i 0).val < win0_6.index ⟨4 * (i 0).val + (i 1).val / 512, ht⟩ (0 : Fin 3) * 1 + 1
    rw [e0]; dsimp only; omega
  | ⟨1, _⟩ =>
    show win0_6.index ⟨4 * (i 0).val + (i 1).val / 512, ht⟩ (1 : Fin 3) * 512 ≤ (i 1).val
      ∧ (i 1).val < win0_6.index ⟨4 * (i 0).val + (i 1).val / 512, ht⟩ (1 : Fin 3) * 512 + 512
    rw [e1]; dsimp only; omega
  | ⟨2, _⟩ =>
    show win0_6.index ⟨4 * (i 0).val + (i 1).val / 512, ht⟩ (2 : Fin 3) * 1024 ≤ (i 2).val
      ∧ (i 2).val < win0_6.index ⟨4 * (i 0).val + (i 1).val / 512, ht⟩ (2 : Fin 3) * 1024 + 1024
    rw [e2]; omega

/-- THE ARRAY after the run is the result. -/
theorem final (c : Dev nD) : (dats m 0 c).arrAt 6 cfg0.N = result m c :=
  (dats m 0 c).arrAt_eq_of_cover 6 (result m c) (fun t _ => flushed_eq m c t) covered

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Result

end
-- ==== Proof.ReferenceRead.lean ====
/-
  The reference, stage by stage, is the specification.

  Each host operation of the reference is read at an index through the generated read-at-an-index lemmas; here the
  stages are named by what they compute: the embedded token, the two encoder layers, the normalized row (the host's
  sum carries an initial zero, which adds nothing), the inner products of one token's row with another's, the
  attention row, the two decoder layers. The composed index maps of the generated lemmas are the coordinate triples
  one expects: a layer contracts the feature axis of its input against the second axis of its weight; the inner
  products contract the feature axes of two rows of one batch; the attention contracts the token axis.
-/
import proofs.«106191_j46617575031493_2_alg».proof.Proof.Gen.ReferenceIdeal.Read
import proofs.«106191_j46617575031493_2_alg».proof.Proof.CosineBlock
import Idealize.ShloMosaic.Lib.ValueIdx
import Idealize.ShloMosaic.PureOps.Ideal.Laws

noncomputable section

open scoped BigOperators
open Idealize.ShloMosaic Idealize.ShloMosaic.ValueIdx

namespace Cert.ReferenceIdeal.Stages

open Cert.ReferenceIdeal Cert.ReferenceIdeal.Read Cert.CosineBlock

variable (x0 : (⟨S16x2048x1024, .f32⟩ : BufTy).Contents (Elt Ideal)) (x1 : (⟨S1x2048x1024, .f32⟩ : BufTy).Contents (Elt Ideal))
variable (x2 x3 x4 x5 : (⟨S1024x1024, .f32⟩ : BufTy).Contents (Elt Ideal))

/-- The embedded token. -/
theorem embed_stage (b : Fin 16) (s : Fin 2048) (d : Fin 1024) :
    val_main_v1 (F := Ideal) x0 x1 (ix3 b s d) = embed x0 x1 b s d := by
  rw [val_main_v1_apply, val_main_v0_apply]
  show x0 (ix3 b s d) + x1 (idx_main_v0 (ix3 b s d)) = x0 (ix3 b s d) + x1 (ix3 (0 : Fin 1) s d)
  exact congrArg (fun j => x0 (ix3 b s d) + x1 j) (funext fun a => Fin.ext (by
    match a with
    | ⟨0, _⟩ => rfl
    | ⟨1, _⟩ => rfl
    | ⟨2, _⟩ => rfl))

/-- The four relus compare against the f32 zero word. -/
theorem zero0 (i : S16x2048x1024.Idx) : val_main_call0_v0 (F := Ideal) i = Ideal.ofBits .f32 0x00000000#32 := by
  rw [val_main_call0_v0_apply, val_main_call0_cst_apply]; rfl
theorem zero1 (i : S16x2048x1024.Idx) : val_main_call1_v0 (F := Ideal) i = Ideal.ofBits .f32 0x00000000#32 := by
  rw [val_main_call1_v0_apply, val_main_call1_cst_apply]; rfl
theorem zero3 (i : S16x2048x1024.Idx) : val_main_call3_v0 (F := Ideal) i = Ideal.ofBits .f32 0x00000000#32 := by
  rw [val_main_call3_v0_apply, val_main_call3_cst_apply]; rfl
theorem zero4 (i : S16x2048x1024.Idx) : val_main_call4_v0 (F := Ideal) i = Ideal.ofBits .f32 0x00000000#32 := by
  rw [val_main_call4_v0_apply, val_main_call4_cst_apply]; rfl

/-- A layer's operand indices at (b, s, e) and contracted coordinate k: (b, s, k) of the input, (e, k) of the weight. -/
theorem input_index (b : Fin 16) (s : Fin 2048) (e k : Fin 1024) : lidx_main_v2 (ix3 b s e) k = ix3 b s k :=
  funext fun a => Fin.ext (by
    match a with
    | ⟨0, _⟩ => rfl
    | ⟨1, _⟩ => rfl
    | ⟨2, _⟩ => rfl)
theorem weight_index (b : Fin 16) (s : Fin 2048) (e k : Fin 1024) : ridx_main_v2 (ix3 b s e) k = ix2 e k :=
  funext fun a => Fin.ext (by
    match a with
    | ⟨0, _⟩ => rfl
    | ⟨1, _⟩ => rfl)

/-- The first encoder layer. -/
theorem layer0_stage (b : Fin 16) (s : Fin 2048) (e : Fin 1024) :
    val_main_v3 (F := Ideal) x0 x1 x2 (ix3 b s e) = dense (embed x0 x1 b s) x2 e := by
  rw [val_main_v3_apply, val_main_v2_apply, zero0]
  show max (∑ k : Fin 1024, val_main_v1 (F := Ideal) x0 x1 (lidx_main_v2 (ix3 b s e) k) * x2 (ridx_main_v2 (ix3 b s e) k)) _ = _
  refine congrArg (fun v => max v (Ideal.ofBits .f32 0x00000000#32)) (Finset.sum_congr rfl fun k _ => ?_)
  rw [input_index, weight_index, embed_stage]

/-- The second encoder layer. -/
theorem layer1_stage (b : Fin 16) (s : Fin 2048) (e : Fin 1024) :
    val_main_v5 (F := Ideal) x0 x1 x2 x3 (ix3 b s e) = dense (dense (embed x0 x1 b s) x2) x3 e := by
  rw [val_main_v5_apply, val_main_v4_apply, zero1]
  show max (∑ k : Fin 1024, val_main_v3 (F := Ideal) x0 x1 x2 (lidx_main_v4 (ix3 b s e) k) * x3 (ridx_main_v4 (ix3 b s e) k)) _ = _
  refine congrArg (fun v => max v (Ideal.ofBits .f32 0x00000000#32)) (Finset.sum_congr rfl fun k _ => ?_)
  rw [show lidx_main_v4 (ix3 b s e) k = ix3 b s k from input_index b s e k,
    show ridx_main_v4 (ix3 b s e) k = ix2 e k from weight_index b s e k, layer0_stage]

/-- The normalized row: the host's sum of squares starts from a zero, which adds nothing. -/
theorem encode_stage (b : Fin 16) (s : Fin 2048) (e : Fin 1024) :
    val_main_v10 (F := Ideal) x0 x1 x2 x3 (ix3 b s e) = encode x0 x1 x2 x3 b s e := by
  rw [val_main_v10_apply, val_main_v9_apply, val_main_v8_apply, val_main_v6_apply, val_main_call2_v2_apply,
    val_main_call2_v1_apply, val_main_v7_apply, val_main_cst_apply, val_main_call2_cst_apply, layer1_stage]
  show Ideal.div _ (Ideal.sqrt (Ideal.ofBits .f32 0x00000000#32 + ∑ k : Fin 1024,
      val_main_call2_v0 (F := Ideal) x0 x1 x2 x3 (idx_main_call2_v1 (idx_main_call2_v2 (idx_main_v9 (ix3 b s e))) k))
    + Ideal.ofBits .f32 0x358637BD#32) = _
  rw [Ideal.ofBits_zero_f32, zero_add]
  refine congrArg (fun v => Ideal.div (dense (dense (embed x0 x1 b s) x2) x3 e) (Ideal.sqrt v + Ideal.ofBits .f32 0x358637BD#32))
    (Finset.sum_congr rfl fun k _ => ?_)
  rw [val_main_call2_v0_apply,
    show idx_main_call2_v1 (idx_main_call2_v2 (idx_main_v9 (ix3 b s e))) k = ix3 b s k from
      funext fun a => Fin.ext (by
        match a with
        | ⟨0, _⟩ => rfl
        | ⟨1, _⟩ => rfl
        | ⟨2, _⟩ => rfl),
    layer1_stage]
  rfl

/-- The inner product of the encoded rows of tokens s and t of one batch. -/
theorem scores_stage (b : Fin 16) (s t : Fin 2048) :
    val_main_v11 (F := Ideal) x0 x1 x2 x3 (ix3 b s t)
      = ∑ k : Fin 1024, encode x0 x1 x2 x3 b s k * encode x0 x1 x2 x3 b t k := by
  rw [val_main_v11_apply]
  refine Finset.sum_congr rfl fun k _ => ?_
  rw [show lidx_main_v11 (ix3 b s t) k = ix3 b s k from
      funext fun a => Fin.ext (by
        match a with
        | ⟨0, _⟩ => rfl
        | ⟨1, _⟩ => rfl
        | ⟨2, _⟩ => rfl),
    show ridx_main_v11 (ix3 b s t) k = ix3 b t k from
      funext fun a => Fin.ext (by
        match a with
        | ⟨0, _⟩ => rfl
        | ⟨1, _⟩ => rfl
        | ⟨2, _⟩ => rfl),
    encode_stage, encode_stage]

/-- The attention row of token s. -/
theorem attend_stage (b : Fin 16) (s : Fin 2048) (d : Fin 1024) :
    val_main_v12 (F := Ideal) x0 x1 x2 x3 (ix3 b s d) = attend (encode x0 x1 x2 x3 b) s d := by
  rw [val_main_v12_apply]
  refine Finset.sum_congr rfl fun t _ => ?_
  rw [show lidx_main_v12 (ix3 b s d) t = ix3 b s t from
      funext fun a => Fin.ext (by
        match a with
        | ⟨0, _⟩ => rfl
        | ⟨1, _⟩ => rfl
        | ⟨2, _⟩ => rfl),
    show ridx_main_v12 (ix3 b s d) t = ix3 b t d from
      funext fun a => Fin.ext (by
        match a with
        | ⟨0, _⟩ => rfl
        | ⟨1, _⟩ => rfl
        | ⟨2, _⟩ => rfl),
    scores_stage, encode_stage]

/-- The first decoder layer. -/
theorem layer2_stage (b : Fin 16) (s : Fin 2048) (e : Fin 1024) :
    val_main_v14 (F := Ideal) x0 x1 x2 x3 x4 (ix3 b s e) = dense (attend (encode x0 x1 x2 x3 b) s) x4 e := by
  rw [val_main_v14_apply, val_main_v13_apply, zero3]
  show max (∑ k : Fin 1024, val_main_v12 (F := Ideal) x0 x1 x2 x3 (lidx_main_v13 (ix3 b s e) k) * x4 (ridx_main_v13 (ix3 b s e) k)) _ = _
  refine congrArg (fun v => max v (Ideal.ofBits .f32 0x00000000#32)) (Finset.sum_congr rfl fun k _ => ?_)
  rw [show lidx_main_v13 (ix3 b s e) k = ix3 b s k from input_index b s e k,
    show ridx_main_v13 (ix3 b s e) k = ix2 e k from weight_index b s e k, attend_stage]

/-- The second decoder layer: the result. -/
theorem layer3_stage (b : Fin 16) (s : Fin 2048) (e : Fin 1024) :
    val_main_v16 (F := Ideal) x0 x1 x2 x3 x4 x5 (ix3 b s e) = dense (dense (attend (encode x0 x1 x2 x3 b) s) x4) x5 e := by
  rw [val_main_v16_apply, val_main_v15_apply, zero4]
  show max (∑ k : Fin 1024, val_main_v14 (F := Ideal) x0 x1 x2 x3 x4 (lidx_main_v15 (ix3 b s e) k) * x5 (ridx_main_v15 (ix3 b s e) k)) _ = _
  refine congrArg (fun v => max v (Ideal.ofBits .f32 0x00000000#32)) (Finset.sum_congr rfl fun k _ => ?_)
  rw [show lidx_main_v15 (ix3 b s e) k = ix3 b s k from input_index b s e k,
    show ridx_main_v15 (ix3 b s e) k = ix2 e k from weight_index b s e k, layer2_stage]

/-- THE REFERENCE IS THE SPECIFICATION. -/
theorem reference_eq : val_main_v16 (F := Ideal) x0 x1 x2 x3 x4 x5 = block x0 x1 x2 x3 x4 x5 := by
  funext i
  obtain ⟨b, s, e, rfl⟩ : ∃ (b : Fin 16) (s : Fin 2048) (e : Fin 1024), i = ix3 b s e := ⟨i 0, i 1, i 2, eq_ix3 i⟩
  rw [layer3_stage, block_apply]

end Cert.ReferenceIdeal.Stages

end
-- ==== Proof.lean ====
/-
  A fused transformer block against its plain reference, on the extended reals.

  Both programs take tokens x [16, 2048, 1024], positions [1, 2048, 1024] and four weights [1024, 1024], and compute,
  per batch: the embedded tokens x + pos; two bias-free linear layers, each followed by a relu; every row divided by its
  Euclidean norm plus ε; cosine attention without a softmax, (Y Yᵀ) Y over the encoded rows Y of the batch; two more
  layers with relus. The kernel walks a grid of 16 batches × 4 query tiles of 512 rows: at the first tile of a batch it
  encodes the whole batch into a buffer it keeps for the other three tiles, and at every tile it computes that tile's
  512 output rows from the buffer. On the extended reals a change of float format is the identity and a matrix product
  is the sum of the products over the contracted coordinate, whoever computes it; so operation by operation, with the
  same literal words, both programs compute `Cert.CosineBlock.block` of the arguments, index by index. No law of
  arithmetic beyond that is used, and nothing is asked of the inputs.

    CosineBlock      the function, by coordinates
    BodyValues       one run of the kernel body: what it leaves in the carried buffer and in the output tile
    CarriedRows      over the grid: the carried buffer after any point holds the encoding of that point's batch
    PayloadRead      the body's two functions read at an index
    ResultArray      the 64 written-back blocks are the blocks of the function; they tile the array
    ReferenceRead    the reference's operations, stage by stage, are the function
-/
import proofs.«106191_j46617575031493_2_alg».proof.Defs
import proofs.«106191_j46617575031493_2_alg».proof.Proof.Gen.Kernel
import proofs.«106191_j46617575031493_2_alg».proof.Proof.Gen.Kernel.Frame
import proofs.«106191_j46617575031493_2_alg».proof.Proof.Gen.KernelIdeal
import proofs.«106191_j46617575031493_2_alg».proof.Proof.Gen.KernelIdeal.Frame
import proofs.«106191_j46617575031493_2_alg».proof.Proof.Gen.KernelIdeal.Value
import proofs.«106191_j46617575031493_2_alg».proof.Proof.Gen.ReferenceIdeal
import proofs.«106191_j46617575031493_2_alg».proof.Proof.Gen.ReferenceIdeal.Run
import proofs.«106191_j46617575031493_2_alg».proof.Proof.Gen.ReferenceIdeal.Read
import proofs.«106191_j46617575031493_2_alg».proof.Proof.Gen.Pre_finite_inputs
import proofs.«106191_j46617575031493_2_alg».proof.Proof.ResultArray
import proofs.«106191_j46617575031493_2_alg».proof.Proof.ReferenceRead
import Idealize.ShloMosaic.Adequacy
import Idealize.ShloMosaic.Init

noncomputable section

namespace Cert.Proof

open Idealize.ShloMosaic Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From arguments that agree, the kernel's result array and the reference's both end at `block` of the arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Stages.reference_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
